-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128 : Shape := ⟨1, ![128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64 .f32) (main_arg6 : FVec F S128 .f32) (main_arg7 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : FVec F S3x64 .f32) (main_arg3 : FVec F S64 .f32) (main_arg4 : FVec F S64x64 .f32) (main_arg5 : FVec F S64 .f32) (main_arg6 : FVec F S128 .f32) (main_arg7 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128 : Shape := ⟨1, ![128]⟩
abbrev S100000x64 : Shape := ⟨2, ![100000, 64]⟩
abbrev S5000x3 : Shape := ⟨2, ![5000, 3]⟩
abbrev S5000x64 : Shape := ⟨2, ![5000, 64]⟩
abbrev S1x64 : Shape := ⟨2, ![1, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x128 : Shape := ⟨2, ![100000, 128]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S100000x64, .f32⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S100000x128, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S128_S128_0 : ∀ a, (![0] : Fin 1 → Nat) a + S128.size a ≤ S128.size a
  h_S128 : 0 < S128.numel
  concatenates_S5000x64_S5000x64_S5000x128_d1 : Shape.Concatenates [S5000x64, S5000x64] S5000x128 1
  reduces_S5000x128_S5000 : S5000x128.Reduces [1] S5000
  shapeCasts_S5000_S5000x1 : S5000.ShapeCasts S5000x1
  broadcasts_S5000x1_S5000x128 : S5000x1.Broadcasts S5000x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  dot_S5000x3_S3x64_S5000x64_1_0_0_1_n_n_wf : DotDims.WF S5000x3 S3x64 S5000x64 [1] [0] [0] [1] [] []
  dot_S5000x64_S64x64_S5000x64_1_0_0_1_n_n_wf : DotDims.WF S5000x64 S64x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S128 : Shape := ⟨1, ![128]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S100000x128 : Shape := ⟨2, ![100000, 128]⟩
abbrev S100000x1 : Shape := ⟨2, ![100000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S100000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S_, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x1, .f32⟩
  | .hbm, ⟨101, _⟩ => ⟨S100000x1, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  concatenates_S100000x64_S100000x64_S100000x128_d1 : Shape.Concatenates [S100000x64, S100000x64] S100000x128 1
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x3_S3x64_S100000x64_1_0_0_1_n_n_wf : DotDims.WF S100000x3 S3x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Middle.lean ====
/-
  The host stretch between the two launches: the graph convolution as ONE function.

  From the edge list `e` (two rows of 1.6 million node numbers) the host forms the sources and the targets, each
  followed by the self loops `0 … 99999`; counts every node's in-degree by scatter-adding ones into zeros along the
  targets; takes `deg^(−1/2)` where the degree is positive (the maximum with one under the root, zero elsewhere); wraps
  negative node numbers by the array's extent; gathers that factor at both ends of every edge and multiplies; gathers the
  rows of `hg` at the sources, scales each by its edge's factor, and scatter-adds the scaled rows into zeros along the
  targets. `aggOf hg e` is that composition, written once with the operations' own records. Nothing below opens a gather
  or a scatter: the kernel applies these very operations to ITS `hg`, the reference to its own, and the two `hg` are
  proved equal elsewhere.

  The second part reads the frame module's boundary contents `W4` (after the stretch) at the five buffers the second
  launch reads: the convolution's result is `aggOf` of the first launch's second output and the edge list as launched;
  the first launch's first output and the three parameter rows are untouched by the stretch.
-/
import proofs.«130040_j28398323761501_1_alg».proof.Proof.Gen.KernelIdeal.Frame
import Idealize.ShloMosaic.Lib.StableHlo.Run

set_option maxRecDepth 16384

noncomputable section

namespace Cert.KernelIdeal.MidV

open Cert.KernelIdeal Cert.KernelIdeal.Gen
open Idealize.ShloMosaic Idealize.ShloMosaic.TcCoe Idealize.SL.Sem Idealize.ShloMosaic.StableHlo

variable {F : FTy → Type} [FloatOps F]

/-- The sources of all edges: row 0 of the edge list, then the self loops. -/
def srcOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

/-- The targets of all edges: row 1 of the edge list, then the self loops. -/
def dstOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- Node numbers as gather indices: a negative one wraps by the extent 100000; one index per row. -/
def wrapIdx (ix : IVec S1700000 32) : IVec S1700000x1 32 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Every node's in-degree, self loop included: ones scatter-added into zeros along the targets. -/
def degOf (e : IVec S2x1600000 32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (dstOf e))
    (broadcastInDim S1700000 ![] bcast_S_S1700000 (constant (F := F) S_ .f32 0x3F800000#32))

/-- `deg^(−1/2)` where the degree is positive, zero elsewhere. -/
def dinvOf (e : IVec S2x1600000 32) : FVec F S100000 .f32 :=
  select (cmpf (F := F) .ogt (degOf e) (broadcastInDim S100000 ![] bcast_S_S100000 (constant (F := F) S_ .f32 0x00000000#32)))
    (Host.rsqrt (maximumf (degOf (F := F) e) (broadcastInDim S100000 ![] bcast_S_S100000 (constant (F := F) S_ .f32 0x3F800000#32))))
    (broadcastInDim S100000 ![] bcast_S_S100000 (id (constant (F := F) S_ .f32 0x00000000#32)))

/-- Every edge's factor: the product of `deg^(−1/2)` at its two ends. -/
def normOf (e : IVec S2x1600000 32) : FVec F S1700000 .f32 :=
  mulf (Host.gather gather_S100000_S1700000x1_S1700000_n_0_n_n_0_1_1 (dinvOf (F := F) e) (wrapIdx (srcOf e)))
    (Host.gather gather_S100000_S1700000x1_S1700000_n_0_n_n_0_1_1 (dinvOf (F := F) e) (wrapIdx (dstOf e)))

/-- THE CONVOLUTION: the rows of `hg` gathered at the sources, scaled by the edges' factors, scatter-added along the targets. -/
def aggOf (hg : FVec F S100000x64 .f32) (e : IVec S2x1600000 32) : FVec F S100000x64 .f32 :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 (dstOf e))
    (mulf (Host.gather gather_S100000x64_S1700000x1_S1700000x64_1_0_n_n_0_1_164 hg (wrapIdx (srcOf e)))
      (broadcastInDim S1700000x64 ![0, 1] bcast_S1700000x1_S1700000x64_0_1
        (broadcastInDim S1700000x1 ![0] bcast_S1700000_S1700000x1_0 (normOf (F := F) e))))

variable (m : (ℓ : Loc nD τ sig) → Buf (Elt F) ℓ) (ρ : Dev nD → PrngReg)

/-- After the stretch the convolution's buffer holds `aggOf` of what the first launch left in its second output and of the
    edge list. -/
theorem W4_agg (c : Dev nD) :
    (W4 m ρ c (Proc.devRef .tc main_v45) : S100000x64.Idx → F .f32)
      = aggOf (W1 m ρ c (Proc.devRef .tc main_v0_1)) (W1 m ρ c (Proc.devRef .tc main_arg1)) := by
  show StableHlo.after hostOps1_2 (StableHlo.after hostOps1_1 (StableHlo.after hostOps1 (W1 m ρ c))) (Proc.devRef .tc main_v45) = _
  after_results_simp
  rfl

/-- The stretch writes none of the other buffers the second launch reads. -/
theorem W4_h (c : Dev nD) : W4 m ρ c (Proc.devRef .tc main_v0_0) = W1 m ρ c (Proc.devRef .tc main_v0_0) := by
  show StableHlo.after hostOps1_2 (StableHlo.after hostOps1_1 (StableHlo.after hostOps1 (W1 m ρ c))) (Proc.devRef .tc main_v0_0) = _
  after_results_simp
theorem W4_arg5 (c : Dev nD) : W4 m ρ c (Proc.devRef .tc main_arg5) = W1 m ρ c (Proc.devRef .tc main_arg5) := by
  show StableHlo.after hostOps1_2 (StableHlo.after hostOps1_1 (StableHlo.after hostOps1 (W1 m ρ c))) (Proc.devRef .tc main_arg5) = _
  after_results_simp
theorem W4_arg6 (c : Dev nD) : W4 m ρ c (Proc.devRef .tc main_arg6) = W1 m ρ c (Proc.devRef .tc main_arg6) := by
  show StableHlo.after hostOps1_2 (StableHlo.after hostOps1_1 (StableHlo.after hostOps1 (W1 m ρ c))) (Proc.devRef .tc main_arg6) = _
  after_results_simp
theorem W4_arg7 (c : Dev nD) : W4 m ρ c (Proc.devRef .tc main_arg7) = W1 m ρ c (Proc.devRef .tc main_arg7) := by
  show StableHlo.after hostOps1_2 (StableHlo.after hostOps1_1 (StableHlo.after hostOps1 (W1 m ρ c))) (Proc.devRef .tc main_arg7) = _
  after_results_simp

end Cert.KernelIdeal.MidV

end
-- ==== Proof.Spec.lean ====
/-
  The mathematics both programs compute, index by index on the extended reals.

  Nodes carry 3 coordinates. A first linear layer with a ramp gives every node 64 features,
      h[n, j] = max (∑ k < 3, x[n, k] · W₁[k, j] + b₁[j]) 0,
  and a second linear map without bias gives the features the graph convolution sends along the edges,
      hg[n, j] = ∑ k < 64, h[n, k] · W_g[k, j].
  The convolution itself (degrees from the edge list with self loops, symmetric normalisation, gather along the
  sources, scatter-add into the targets) is ONE function of `hg` and the edge list; nothing in this certificate opens
  it, because both programs apply literally the same operations to `hg`: it is stated where the programs' operation
  records are in scope. Last, every node's row of 128 numbers — its 64 features followed by the ramp of its 64
  aggregated features plus a bias — is normalised: with μ the row's mean and σ² the mean of the squared deviations,
      out[n, j] = (row[j] − μ) · (σ² + ε)^(−1/2) · γ[j] + β[j].
  The mean is a sum divided by the literal 128, ε is the literal both programs share; the literals are kept as the
  binary words the programs print, so neither side ever evaluates one.

  The row functions below are stated over `Fin 128 → EReal`, with no array around them: a block of 5000 rows of the
  kernel and the whole array of 100000 rows of the reference both read a row this way.
-/
import Idealize.ShloMosaic.PureOps.Ideal
import Idealize.ShloMosaic.Lib.ValueIdx

noncomputable section

namespace Cert.Gcn

open Idealize.ShloMosaic Idealize.ShloMosaic.ValueIdx

/-- The divisor of both means, the literal 128.0, and the variance's ε, as the words both programs print. -/
abbrev w128 : EReal := Ideal.ofBits .f32 0x43000000#32
abbrev wEps : EReal := Ideal.ofBits .f32 0x3727C5AC#32
abbrev wZero : EReal := Ideal.ofBits .f32 0x00000000#32

/-- A row's mean: its sum over the literal 128. -/
def rowMean (row : Fin 128 → EReal) : EReal := Ideal.div (∑ k : Fin 128, row k) w128

/-- A row's variance: the mean of the squared deviations from the row's mean. -/
def rowVar (row : Fin 128 → EReal) : EReal :=
  Ideal.div (∑ k : Fin 128, (row k - rowMean row) * (row k - rowMean row)) w128

/-- One entry of the normalised row, scaled by `g` and shifted by `b`. -/
def lnEntry (row : Fin 128 → EReal) (g b : EReal) (j : Fin 128) : EReal :=
  (row j - rowMean row) * Ideal.rsqrt (rowVar row + wEps) * g + b

/-- A node's row of 128: its 64 features, then the ramp of its 64 aggregated features plus the bias. -/
def catRow (h a bg : Fin 64 → EReal) (k : Fin 128) : EReal :=
  if hk : k.val < 64 then h ⟨k.val, hk⟩ else max (a ⟨k.val - 64, by omega⟩ + bg ⟨k.val - 64, by omega⟩) wZero

/-- The first layer with its ramp, on the whole array. -/
def hOut (x : (⟨2, ![100000, 3]⟩ : Shape).Idx → EReal) (w1 : (⟨2, ![3, 64]⟩ : Shape).Idx → EReal)
    (b1 : (⟨1, ![64]⟩ : Shape).Idx → EReal) : (⟨2, ![100000, 64]⟩ : Shape).Idx → EReal :=
  fun i => max ((∑ k : Fin 3, x (ix2 (i 0) k) * w1 (ix2 k (i 1))) + b1 (ix1 (i 1))) wZero

/-- The second linear map, on the whole array. -/
def hgOut (h : (⟨2, ![100000, 64]⟩ : Shape).Idx → EReal) (wg : (⟨2, ![64, 64]⟩ : Shape).Idx → EReal) :
    (⟨2, ![100000, 64]⟩ : Shape).Idx → EReal :=
  fun i => ∑ k : Fin 64, h (ix2 (i 0) k) * wg (ix2 k (i 1))

/-- The normalised concatenation, on the whole array: entry `(n, j)` is entry `j` of node `n`'s normalised row. -/
def lnOut (h agg : (⟨2, ![100000, 64]⟩ : Shape).Idx → EReal) (bg : (⟨1, ![64]⟩ : Shape).Idx → EReal)
    (gamma beta : (⟨1, ![128]⟩ : Shape).Idx → EReal) : (⟨2, ![100000, 128]⟩ : Shape).Idx → EReal :=
  fun i => lnEntry (catRow (fun k => h (ix2 (i 0) k)) (fun k => agg (ix2 (i 0) k)) (fun k => bg (ix1 k)))
    (gamma (ix1 (i 1))) (beta (ix1 (i 1))) (i 1)

end Cert.Gcn

end
-- ==== Proof.RefValue.lean ====
/-
  The reference, read as the same whole-array functions.

  The reference computes everything on whole arrays with the host's operations. Read one operation at a time (the generated
  stage functions `val_…` and their index lemmas), its first layer is `hOut`, its second linear map is `hgOut` of that, its
  graph convolution is `aggOf` — the very composition of gathers and scatter-adds the kernel's host stretch applies, so
  the equation holds by unfolding both sides (the two programs' operation records carry the same dimension data) — and
  its normalisation, row by row, is `lnOut`: the host's sum over the 128 columns starts from the zero word and adds the
  row's entries, its quotient by the literal 128 is the row mean, and so on down the row functions of the specification.
-/
import proofs.«130040_j28398323761501_1_alg».proof.Proof.RefRead
import proofs.«130040_j28398323761501_1_alg».proof.Proof.Middle
import proofs.«130040_j28398323761501_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefV

open Cert.ReferenceIdeal Cert.ReferenceIdeal.Gen Cert.ReferenceIdeal.ReadP Cert.Gcn
open Idealize.ShloMosaic Idealize.ShloMosaic.ValueIdx

variable (x0 : (⟨S100000x3, .f32⟩ : BufTy).Contents (Elt Ideal)) (x1 : (⟨S2x1600000, .i32⟩ : BufTy).Contents (Elt Ideal))
  (x2 : (⟨S3x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 x7 : (⟨S128, .f32⟩ : BufTy).Contents (Elt Ideal))

/-! ## The two linear layers -/

/-- The first layer with its ramp is `hOut`. -/
theorem ref_h : val_main_v4 (F := Ideal) x0 x2 x3 = hOut x0 x2 x3 := by
  funext i
  rw [val_main_v4_apply, val_main_v3_apply, val_main_v0_apply, val_main_v2_apply, val_main_v1_apply,
    val_main_call0_v0_apply, val_main_call0_cst_apply]
  have el : ∀ k : Fin 3, lidx_main_v0 i k = ix2 (i 0) k := fun k => funext fun a => Fin.ext (by
    match a with | ⟨0, _⟩ => rfl | ⟨1, _⟩ => rfl)
  have er : ∀ k : Fin 3, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by match a with | ⟨0, _⟩ => rfl)
  simp only [el, er, eb]
  rfl

/-- The second linear map is `hgOut` of the first layer's result. -/
theorem ref_hg : val_main_v37 (F := Ideal) x0 x2 x3 x4 = hgOut (val_main_v4 (F := Ideal) x0 x2 x3) x4 := by
  funext i
  rw [val_main_v37_apply]
  have el : ∀ k : Fin 64, lidx_main_v37 i k = ix2 (i 0) k := fun k => funext fun a => Fin.ext (by
    match a with | ⟨0, _⟩ => rfl | ⟨1, _⟩ => rfl)
  have er : ∀ k : Fin 64, ridx_main_v37 i k = ix2 k (i 1) := fun k => funext fun a => Fin.ext (by
    match a with | ⟨0, _⟩ => rfl | ⟨1, _⟩ => rfl)
  simp only [el, er]
  rfl

/-! ## The convolution -/

/-- The reference's convolution is the kernel's host stretch applied to the reference's own `hg`: the same operations in
    the same order, so the two compositions unfold to one term. -/
theorem ref_agg : val_main_v50 (F := Ideal) x0 x1 x2 x3 x4
    = Cert.KernelIdeal.MidV.aggOf (F := Ideal) (val_main_v37 (F := Ideal) x0 x2 x3 x4) x1 := rfl

/-! ## The normalisation, row by row -/

/-- Two [100000, 64] arrays joined along the columns, read at `(r, k)`. -/
theorem joinR_apply (A B : S100000x64.Idx → EReal) (r : Fin 100000) (k : Fin 128) :
    concatenate S100000x128 1 [⟨S100000x64, A⟩, ⟨S100000x64, B⟩] concatenates_S100000x64_S100000x64_S100000x128_d1 (ix2 r k)
      = if hk : k.val < 64 then A (ix2 r ⟨k.val, hk⟩) else B (ix2 r ⟨k.val - 64, by omega⟩) := by
  by_cases hk : k.val < 64
  · rw [dif_pos hk]
    refine concatenate_pair_apply_left 1 A B concatenates_S100000x64_S100000x64_S100000x128_d1 (ix2 r k) rfl (ix2 r ⟨k.val, hk⟩) fun b => ?_
    match b with
    | ⟨0, _⟩ => rfl
    | ⟨1, _⟩ => rfl
  · rw [dif_neg hk]
    refine concatenate_pair_apply_right 1 A B concatenates_S100000x64_S100000x64_S100000x128_d1 (ix2 r k) rfl rfl (ix2 r ⟨k.val - 64, by omega⟩)
      (fun b hb => ?_) ?_
    · match b with
      | ⟨0, _⟩ => rfl
      | ⟨1, _⟩ => exact absurd rfl hb
    · show (k.val - 64) + 64 = k.val
      omega

/-- The joined array's row `r` is the specification's row. -/
theorem catR (r : Fin 100000) (k : Fin 128) :
    val_main_v55 (F := Ideal) x0 x1 x2 x3 x4 x5 (ix2 r k)
      = catRow (fun q => val_main_v4 (F := Ideal) x0 x2 x3 (ix2 r q)) (fun q => val_main_v50 (F := Ideal) x0 x1 x2 x3 x4 (ix2 r q)) (fun q => x5 (ix1 q)) k := by
  unfold val_main_v55 catRow
  rw [joinR_apply]
  by_cases hk : k.val < 64
  · rw [dif_pos hk, dif_pos hk]
  · rw [dif_neg hk, dif_neg hk, val_main_v54_apply, val_main_v53_apply, val_main_v52_apply, val_main_v51_apply,
      val_main_call2_v0_apply, val_main_call2_cst_apply]
    have eb : idx_main_v51 (idx_main_v52 (ix2 r (⟨k.val - 64, by omega⟩ : Fin 64))) = ix1 (⟨k.val - 64, by omega⟩ : Fin 64) :=
      funext fun a => Fin.ext (by match a with | ⟨0, _⟩ => rfl)
    rw [eb]
    rfl

/-- The row mean, read at row `r`. -/
theorem meanR (r : Fin 100000) (u : Fin 1) :
    val_main_v59 (F := Ideal) x0 x1 x2 x3 x4 x5 (ix2 r u) = rowMean (fun k => val_main_v55 (F := Ideal) x0 x1 x2 x3 x4 x5 (ix2 r k)) := by
  rw [val_main_v59_apply, val_main_v57_apply, val_main_v56_apply, val_main_v58_apply, val_main_cst_11_apply, val_main_cst_10_apply]
  have hidx : ∀ k : Fin 128, idx_main_v56 (idx_main_v57 (ix2 r u)) k = ix2 r k := fun k => funext fun a => Fin.ext (by
    match a with | ⟨0, _⟩ => rfl | ⟨1, _⟩ => rfl)
  simp only [hidx]
  show Ideal.div (Ideal.ofBits .f32 0x00000000#32 + ∑ k : Fin 128, val_main_v55 (F := Ideal) x0 x1 x2 x3 x4 x5 (ix2 r k)) w128 = _
  rw [Ideal.ofBits_zero_f32, zero_add]
  rfl

/-- The deviations (the reference forms them twice, from one mean). -/
theorem devR (r : Fin 100000) (j : Fin 128) :
    val_main_v61 (F := Ideal) x0 x1 x2 x3 x4 x5 (ix2 r j)
      = val_main_v55 (F := Ideal) x0 x1 x2 x3 x4 x5 (ix2 r j) - rowMean (fun k => val_main_v55 (F := Ideal) x0 x1 x2 x3 x4 x5 (ix2 r k)) := by
  rw [val_main_v61_apply, val_main_v60_apply]
  have e : idx_main_v60 (ix2 r j) = ix2 r (0 : Fin 1) := funext fun a => Fin.ext (by match a with | ⟨0, _⟩ => rfl | ⟨1, _⟩ => rfl)
  rw [e, meanR]
  rfl
theorem devR' (r : Fin 100000) (j : Fin 128) :
    val_main_v68 (F := Ideal) x0 x1 x2 x3 x4 x5 (ix2 r j)
      = val_main_v55 (F := Ideal) x0 x1 x2 x3 x4 x5 (ix2 r j) - rowMean (fun k => val_main_v55 (F := Ideal) x0 x1 x2 x3 x4 x5 (ix2 r k)) := by
  rw [val_main_v68_apply, val_main_v67_apply]
  have e : idx_main_v67 (ix2 r j) = ix2 r (0 : Fin 1) := funext fun a => Fin.ext (by match a with | ⟨0, _⟩ => rfl | ⟨1, _⟩ => rfl)
  rw [e, meanR]
  rfl

/-- The row variance, read at row `r`. -/
theorem varR (r : Fin 100000) (u : Fin 1) :
    val_main_v66 (F := Ideal) x0 x1 x2 x3 x4 x5 (ix2 r u) = rowVar (fun k => val_main_v55 (F := Ideal) x0 x1 x2 x3 x4 x5 (ix2 r k)) := by
  rw [val_main_v66_apply, val_main_v64_apply, val_main_v63_apply, val_main_v65_apply, val_main_cst_13_apply, val_main_cst_12_apply]
  have hidx : ∀ k : Fin 128, idx_main_v63 (idx_main_v64 (ix2 r u)) k = ix2 r k := fun k => funext fun a => Fin.ext (by
    match a with | ⟨0, _⟩ => rfl | ⟨1, _⟩ => rfl)
  simp only [hidx]
  show Ideal.div (Ideal.ofBits .f32 0x00000000#32 + ∑ k : Fin 128, val_main_v62 (F := Ideal) x0 x1 x2 x3 x4 x5 (ix2 r k)) w128 = _
  rw [Ideal.ofBits_zero_f32, zero_add]
  unfold rowVar
  refine congrArg (fun s => Ideal.div s w128) (Finset.sum_congr rfl fun k _ => ?_)
  rw [val_main_v62_apply, devR]
  rfl

/-- The result at `(r, j)`: entry `j` of the normalisation of row `r` of the joined array. -/
theorem outR (r : Fin 100000) (j : Fin 128) :
    val_main_v79 (F := Ideal) x0 x1 x2 x3 x4 x5 x6 x7 (ix2 r j)
      = lnEntry (fun k => val_main_v55 (F := Ideal) x0 x1 x2 x3 x4 x5 (ix2 r k)) (x6 (ix1 j)) (x7 (ix1 j)) j := by
  rw [val_main_v79_apply, val_main_v76_apply, val_main_v73_apply, val_main_v72_apply, val_main_v71_apply, val_main_v70_apply,
    val_main_v69_apply, val_main_cst_14_apply, val_main_v75_apply, val_main_v74_apply, val_main_v78_apply, val_main_v77_apply]
  have e72 : idx_main_v72 (ix2 r j) = ix2 r (0 : Fin 1) := funext fun a => Fin.ext (by match a with | ⟨0, _⟩ => rfl | ⟨1, _⟩ => rfl)
  have e6 : idx_main_v74 (idx_main_v75 (ix2 r j)) = ix1 j := funext fun a => Fin.ext (by match a with | ⟨0, _⟩ => rfl)
  have e7 : idx_main_v77 (idx_main_v78 (ix2 r j)) = ix1 j := funext fun a => Fin.ext (by match a with | ⟨0, _⟩ => rfl)
  rw [e72, e6, e7, devR', varR]
  rfl

/-- The normalisation is `lnOut` of the first layer's result and the convolution's. -/
theorem ref_ln : val_main_v79 (F := Ideal) x0 x1 x2 x3 x4 x5 x6 x7
    = lnOut (val_main_v4 (F := Ideal) x0 x2 x3) (val_main_v50 (F := Ideal) x0 x1 x2 x3 x4) x5 x6 x7 := by
  funext i
  obtain ⟨r, j, rfl⟩ : ∃ (r : Fin 100000) (j : Fin 128), i = ix2 r j := ⟨i 0, i 1, eq_ix2 i⟩
  rw [outR]
  unfold lnOut
  have hrow : (fun k => val_main_v55 (F := Ideal) x0 x1 x2 x3 x4 x5 (ix2 r k))
      = catRow (fun q => val_main_v4 (F := Ideal) x0 x2 x3 (ix2 r q)) (fun q => val_main_v50 (F := Ideal) x0 x1 x2 x3 x4 (ix2 r q)) (fun q => x5 (ix1 q)) :=
    funext fun k => catR x0 x1 x2 x3 x4 x5 r k
  rw [hrow]

/-- THE REFERENCE's result as the specification's composition of the arguments. -/
theorem ref_out : val_main_v79 (F := Ideal) x0 x1 x2 x3 x4 x5 x6 x7
    = lnOut (hOut x0 x2 x3) (Cert.KernelIdeal.MidV.aggOf (F := Ideal) (hgOut (hOut x0 x2 x3) x4) x1) x5 x6 x7 := by
  rw [ref_ln, ref_agg, ref_hg, ref_h]

end Cert.ReferenceIdeal.RefV

end
-- ==== Proof.KernelRun.lean ====
/-
  The idealized kernel's run with its RESULT in the post.

  @main is two grid launches with a stretch of host operations between them. The frame module already describes the
  buffer contents at every boundary of that chain as a fold from the launch memory: `W1` after the first launch (its
  two output arrays at what the write-backs of all twenty grid points leave), `W4` after the host stretch (gathers and
  scatter-adds along the edge list), `W5` after the second launch. The frame keeps of the final state only that the eight
  argument arrays are unchanged. Here the same chain of segments is run once more and the post also keeps the result
  buffer: it ends at `W5`'s contents of it, which is the second launch's output array after all its write-backs,
  `(dat1 (V4 m ρ) c).arrAt 5 cfg1.N`. What that array holds as a function of the arguments is the business of the
  value modules; nothing here looks inside a block.
-/
import proofs.«130040_j28398323761501_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the last boundary is the second launch's output array after all its write-backs: it is
    window 5's array, and a launch leaves each of its arrays at the fold of its points' write-backs. -/
theorem W5_result (c : Dev nD) :
    W5 m ρ c (Proc.devRef .tc main_v46) = (dat1 (V4 m ρ) c).arrAt 5 cfg1.N :=
  W5_arr m ρ c 5

set_option backward.isDefEq.respectTransparency.types false in
/-- Every weakly fair execution of @main terminates without a fault, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunV

end
-- ==== Proof.Payload0.lean ====
/-
  What the first kernel's body computes, at one entry of its block.

  A grid point holds 5000 rows of `x`. The body multiplies them by `W₁` on the matrix unit (the narrowing of both
  operands to a shorter float format is the identity on the extended reals, and the accumulator starts at zero), adds
  the bias row broadcast down the block, and takes the maximum with zero: entry `(p, q)` of the first output block is
  `max (∑ k < 3, x[p, k] · W₁[k, q] + b₁[q]) 0`. The second output block is that block times `W_g`:
  entry `(p, q)` is `∑ k < 64, h[p, k] · W_g[k, q]`. Both are stated over variables of the block's literal shapes.
  A matrix product read at an index is a sum over the contraction index, a one-axis index here, re-indexed by its one
  coordinate; the operand indices at `(p, q)` and contraction coordinate `k` are `(p, k)` and `(k, q)`.
-/
import proofs.«130040_j28398323761501_1_alg».proof.Proof.Gen.KernelIdeal.Skeleton
import proofs.«130040_j28398323761501_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayV

open Cert.KernelIdeal Cert.KernelIdeal.Gen Cert.Gcn
open Idealize.ShloMosaic Idealize.ShloMosaic.ValueIdx

theorem lhsA_0 (i : S5000x64.Idx) (q : dot_S5000x3_S3x64_S5000x64_1_0_0_1_n_n.contr.Idx) : (dot_S5000x3_S3x64_S5000x64_1_0_0_1_n_n.lhsIdx i q 0).val = (i 0).val := by
  unfold DotDims.lhsIdx
  rw [dif_neg (show ¬(0 : Fin S5000x3.rank) ∈ dot_S5000x3_S3x64_S5000x64_1_0_0_1_n_n.lhsBatch by decide), dif_pos (show (0 : Fin S5000x3.rank) ∈ dot_S5000x3_S3x64_S5000x64_1_0_0_1_n_n.lhsNonContracting by decide)]
  rfl
theorem lhsA_1 (i : S5000x64.Idx) (q : dot_S5000x3_S3x64_S5000x64_1_0_0_1_n_n.contr.Idx) : (dot_S5000x3_S3x64_S5000x64_1_0_0_1_n_n.lhsIdx i q 1).val = (q ⟨0, by decide⟩).val :=
  dot_S5000x3_S3x64_S5000x64_1_0_0_1_n_n.lhsIdx_val_of_single rfl i q
theorem rhsA_0 (i : S5000x64.Idx) (q : dot_S5000x3_S3x64_S5000x64_1_0_0_1_n_n.contr.Idx) : (dot_S5000x3_S3x64_S5000x64_1_0_0_1_n_n.rhsIdx i q 0).val = (q ⟨0, by decide⟩).val :=
  dot_S5000x3_S3x64_S5000x64_1_0_0_1_n_n.rhsIdx_val_of_single rfl i q
theorem rhsA_1 (i : S5000x64.Idx) (q : dot_S5000x3_S3x64_S5000x64_1_0_0_1_n_n.contr.Idx) : (dot_S5000x3_S3x64_S5000x64_1_0_0_1_n_n.rhsIdx i q 1).val = (i 1).val := by
  unfold DotDims.rhsIdx
  rw [dif_neg (show ¬(1 : Fin S3x64.rank) ∈ dot_S5000x3_S3x64_S5000x64_1_0_0_1_n_n.rhsBatch by decide), dif_pos (show (1 : Fin S3x64.rank) ∈ dot_S5000x3_S3x64_S5000x64_1_0_0_1_n_n.rhsNonContracting by decide)]
  rfl

/-- The block's matrix product into a zero accumulator, read at `(p, q)`: the sum over the 3 contracted coordinates
    of the left operand's row `p` times the right operand's column `q` (the accumulator's zero word is the real zero,
    and the one-axis contraction index is its coordinate). -/
theorem mmA_apply {φ₁ φ₂ : FTy} (l : FVec Ideal S5000x3 φ₁) (r : FVec Ideal S3x64 φ₂) (p : Fin 5000) (q : Fin 64) :
    matmul dot_S5000x3_S3x64_S5000x64_1_0_0_1_n_n none l r (constant S5000x64 .f32 0x00000000#32) (ix2 p q)
      = ∑ k : Fin 3, l (ix2 p k) * r (ix2 k q) := by
  simp only [matmul]
  rw [Ideal.matmul_constant_zero_apply, ← Equiv.sum_comp (contrEquiv1 dot_S5000x3_S3x64_S5000x64_1_0_0_1_n_n 3 rfl rfl).symm]
  refine Finset.sum_congr rfl fun k _ => ?_
  have hk := contrEquiv1_symm_val dot_S5000x3_S3x64_S5000x64_1_0_0_1_n_n 3 rfl rfl k
  have el : dot_S5000x3_S3x64_S5000x64_1_0_0_1_n_n.lhsIdx (ix2 p q) ((contrEquiv1 dot_S5000x3_S3x64_S5000x64_1_0_0_1_n_n 3 rfl rfl).symm k) = ix2 p k := funext fun a => Fin.ext (by
    match a with
    | ⟨0, _⟩ => exact lhsA_0 _ _
    | ⟨1, _⟩ => exact (lhsA_1 _ _).trans hk)
  have er : dot_S5000x3_S3x64_S5000x64_1_0_0_1_n_n.rhsIdx (ix2 p q) ((contrEquiv1 dot_S5000x3_S3x64_S5000x64_1_0_0_1_n_n 3 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into a zero accumulator, read at `(p, q)`: the sum over the 64 contracted coordinates
    of the left operand's row `p` times the right operand's column `q` (the accumulator's zero word is the real zero,
    and the one-axis contraction index is its coordinate). -/
theorem mmB_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- The first output block at `(p, q)`. -/
theorem pay1_apply (v0 : FVec Ideal S5000x3 .f32) (v2 : FVec Ideal S3x64 .f32) (v4 : FVec Ideal S64 .f32) (p : Fin 5000) (q : Fin 64) :
    k0_pay1 (F := Ideal) v0 v2 v4 (ix2 p q) = max ((∑ k : Fin 3, v0 (ix2 p k) * v2 (ix2 k q)) + v4 (ix1 q)) wZero := by
  unfold k0_pay1
  show max (matmul dot_S5000x3_S3x64_S5000x64_1_0_0_1_n_n none (truncf .bf16 v0 bitsLt_bf16_f32) (truncf .bf16 v2 bitsLt_bf16_f32) (constant S5000x64 .f32 0x00000000#32) (ix2 p q)
        + broadcastTo S5000x64 (shapeCast S1x64 v4 shapeCasts_S64_S1x64) broadcasts_S1x64_S5000x64 (ix2 p q)) wZero = _
  rw [mmA_apply, broadcastTo_1b_ab_apply, shapeCast_a_1a_apply]
  rfl

/-- The second output block at `(p, q)`: the first block's row `p` against column `q` of `W_g`. -/
theorem pay2_apply (v0 : FVec Ideal S5000x3 .f32) (v2 : FVec Ideal S3x64 .f32) (v4 : FVec Ideal S64 .f32) (v11 : FVec Ideal S64x64 .f32)
    (p : Fin 5000) (q : Fin 64) :
    k0_pay2 (F := Ideal) v0 v2 v4 v11 (ix2 p q) = ∑ k : Fin 64, k0_pay1 (F := Ideal) v0 v2 v4 (ix2 p k) * v11 (ix2 k q) := by
  unfold k0_pay2
  show matmul dot_S5000x64_S64x64_S5000x64_1_0_0_1_n_n none (truncf .bf16 (k0_pay1 (F := Ideal) v0 v2 v4) bitsLt_bf16_f32) (truncf .bf16 v11 bitsLt_bf16_f32)
      (constant S5000x64 .f32 0x00000000#32) (ix2 p q) = _
  rw [mmB_apply]
  rfl

end Cert.KernelIdeal.PayV

end
-- ==== Proof.Region0.lean ====
/-
  The first launch's two output arrays as whole-array functions of its inputs.

  The grid has 20 points; point `t` reads rows `5000·t … 5000·t + 4999` of `x` and the whole of `W₁`, `b₁`, `W_g`, and
  writes back rows `5000·t …` of both outputs. So what point `t` writes back is the restriction to those rows of ONE
  function of the whole input arrays — `hOut` for the first output, `hgOut` of `hOut` for the second — because a row of
  either output depends on the same row of `x` only. The twenty blocks of rows tile the 100000 rows (row `r` is in the
  block of point `r / 5000`), so after the last write-back each output array is that function everywhere.

  Everything is stated at a parameter `V`, the buffer contents when the launch is entered, as the frame module does.
-/
import proofs.«130040_j28398323761501_1_alg».proof.Proof.Gen.KernelIdeal.Frame
import proofs.«130040_j28398323761501_1_alg».proof.Proof.Payload0
import proofs.«130040_j28398323761501_1_alg».proof.Proof.Spec
import Idealize.ShloMosaic.Lib.Pipeline.Value
import Idealize.ShloMosaic.Lib.ValueIdx

set_option maxRecDepth 16384

noncomputable section

namespace Cert.KernelIdeal.Reg0V

open Cert.KernelIdeal Cert.KernelIdeal.Gen Cert.KernelIdeal.PayV Cert.Gcn
open Idealize.ShloMosaic Idealize.ShloMosaic.TcCoe Idealize.ShloMosaic.ValueIdx Idealize.SL.Sem
open Idealize.ShloMosaic.Pipeline (Dat Cfg Window)

/-! ## One point, over variables of the literal shapes -/

/-- If a block `x0` of 5000 rows is rows `5000·T …` of `X`, then the first output block at `y` is `hOut X W B` at the
    array index with row `5000·T + y₀` and the same column. -/
theorem hBlock (X : S100000x3.Idx → EReal) (W : S3x64.Idx → EReal) (B : S64.Idx → EReal)
    (x0 : FVec Ideal S5000x3 .f32) (T : Nat)
    (h0 : ∀ (p : Fin 5000) (k : Fin 3) (r : Fin 100000), r.val = T * 5000 + p.val → x0 (ix2 p k) = X (ix2 r k))
    (y : S5000x64.Idx) (i : S100000x64.Idx) (hi0 : (i 0).val = T * 5000 + (y 0).val) (hi1 : (i 1).val = (y 1).val) :
    k0_pay1 (F := Ideal) x0 W B y = hOut X W B i := by
  obtain ⟨p, q, rfl⟩ : ∃ (p : Fin 5000) (q : Fin 64), y = ix2 p q := ⟨y 0, y 1, eq_ix2 y⟩
  rw [pay1_apply]
  unfold hOut
  have e1 : (i 1 : Fin 64) = q := Fin.ext hi1
  rw [e1]
  refine congrArg (fun s => max (s + B (ix1 q)) wZero) (Finset.sum_congr rfl fun k _ => ?_)
  rw [h0 p k (i 0) hi0]

/-- The same for the second output block: row `y₀` of the first block against column `y₁` of `G`. -/
theorem hgBlock (X : S100000x3.Idx → EReal) (W : S3x64.Idx → EReal) (B : S64.Idx → EReal) (G : S64x64.Idx → EReal)
    (x0 : FVec Ideal S5000x3 .f32) (T : Nat)
    (h0 : ∀ (p : Fin 5000) (k : Fin 3) (r : Fin 100000), r.val = T * 5000 + p.val → x0 (ix2 p k) = X (ix2 r k))
    (y : S5000x64.Idx) (i : S100000x64.Idx) (hi0 : (i 0).val = T * 5000 + (y 0).val) (hi1 : (i 1).val = (y 1).val) :
    k0_pay2 (F := Ideal) x0 W B G y = hgOut (hOut X W B) G i := by
  obtain ⟨p, q, rfl⟩ : ∃ (p : Fin 5000) (q : Fin 64), y = ix2 p q := ⟨y 0, y 1, eq_ix2 y⟩
  rw [pay2_apply]
  unfold hgOut
  have e1 : (i 1 : Fin 64) = q := Fin.ext hi1
  rw [e1]
  refine Finset.sum_congr rfl fun k _ => ?_
  rw [hBlock X W B x0 T h0 (ix2 p k) (ix2 (i 0) k) hi0 rfl]

/-! ## The launch's index maps, decided once over the grid -/

theorem hz2 : (![0, 0] : Fin 2 → Nat) = fun _ => 0 := funext fun a => by fin_cases a <;> rfl
theorem hz1 : (![0] : Fin 1 → Nat) = fun _ => 0 := funext fun a => by fin_cases a <;> rfl

/-- Point `t` reads block `t` of the rows of `x` and block 0 of the three small operands, and writes block `t` of the
    rows of both outputs. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The block of `x` at point `t` is rows `5000·t …` of `x`. -/
theorem xblk (c : Dev nD) (t : Fin cfg0.N) (p : Fin 5000) (k : Fin 3) (r : Fin 100000) (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 3 + 1 * k.val = k.val; omega

/-- A small operand's block at any point is the whole operand. -/
theorem w1blk (c : Dev nD) (t : Fin cfg0.N) : iblk0 V c 1 t = V c main_arg2 := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 3 + 1 * (y 0).val = (y 0).val; omega
  | ⟨1, _⟩ => show win0_1.index t (1 : Fin 2) * 64 + 1 * (y 1).val = (y 1).val; omega
theorem b1blk (c : Dev nD) (t : Fin cfg0.N) : iblk0 V c 2 t = V c main_arg3 := by
  obtain ⟨-, -, -, -, e0, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 64 + 1 * (y 0).val = (y 0).val; omega
theorem wgblk (c : Dev nD) (t : Fin cfg0.N) : iblk0 V c 3 t = V c main_arg4 := by
  obtain ⟨-, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-! ## What a point writes back, and the arrays after the launch -/

/-- The first output of the launch, as a function of the arrays the launch finds. -/
abbrev Hf (c : Dev nD) : S100000x64.Idx → EReal := hOut (V c main_arg0) (V c main_arg2) (V c main_arg3)
/-- The second. -/
abbrev HGf (c : Dev nD) : S100000x64.Idx → EReal := hgOut (Hf V c) (V c main_arg4)

theorem flushed4_eq (c : Dev nD) (t : Fin cfg0.N) :
    (dat0 V c).flushed 4 t = ((cfg0.win 4).blk t).view.read (Elt Ideal) (Hf V c) := by
  show (cfg0.win 4).cut (grid0.coords t) ((dat0 V c).after 4 t) = _
  rw [after0_4]
  unfold out0_4
  rw [View.canon_unit_zero hz2]
  simp only [View.ld_unit_zero (S := S5000x3) hz2, View.ld_unit_zero (S := S3x64) hz2, View.ld_unit_zero (S := S64) hz1]
  rw [w1blk V c t, b1blk V c t]
  obtain ⟨-, -, -, -, -, -, -, e0, e1, -⟩ := idx_facts t
  funext y
  show k0_pay1 (F := Ideal) (iblk0 V c 0 t) (V c main_arg2) (V c main_arg3) y = Hf V c (((cfg0.win 4).blk t).view.emb y)
  refine hBlock (V c main_arg0) (V c main_arg2) (V c main_arg3) (iblk0 V c 0 t) t.val (fun p k r hr => xblk V c t p k r hr) y
    (((cfg0.win 4).blk t).view.emb y) ?_ ?_
  · show win0_4.index t (0 : Fin 2) * 5000 + 1 * (y 0).val = t.val * 5000 + (y 0).val; omega
  · show win0_4.index t (1 : Fin 2) * 64 + 1 * (y 1).val = (y 1).val; omega

theorem flushed5_eq (c : Dev nD) (t : Fin cfg0.N) :
    (dat0 V c).flushed 5 t = ((cfg0.win 5).blk t).view.read (Elt Ideal) (HGf V c) := by
  show (cfg0.win 5).cut (grid0.coords t) ((dat0 V c).after 5 t) = _
  rw [after0_5]
  unfold out0_5
  rw [View.canon_unit_zero hz2]
  simp only [View.ld_unit_zero (S := S5000x3) hz2, View.ld_unit_zero (S := S3x64) hz2, View.ld_unit_zero (S := S64) hz1,
    View.ld_unit_zero (S := S64x64) hz2]
  rw [w1blk V c t, b1blk V c t, wgblk V c t]
  obtain ⟨-, -, -, -, -, -, -, -, -, e0, e1⟩ := idx_facts t
  funext y
  show k0_pay2 (F := Ideal) (iblk0 V c 0 t) (V c main_arg2) (V c main_arg3) (V c main_arg4) y = HGf V c (((cfg0.win 5).blk t).view.emb y)
  refine hgBlock (V c main_arg0) (V c main_arg2) (V c main_arg3) (V c main_arg4) (iblk0 V c 0 t) t.val (fun p k r hr => xblk V c t p k r hr) y
    (((cfg0.win 5).blk t).view.emb y) ?_ ?_
  · show win0_5.index t (0 : Fin 2) * 5000 + 1 * (y 0).val = t.val * 5000 + (y 0).val; omega
  · show win0_5.index t (1 : Fin 2) * 64 + 1 * (y 1).val = (y 1).val; omega

/-- An index of an output array is in point `t`'s block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0_0).slice (win0_4.rect t)).set ↔ _
  rw [View.set_slice_whole, Rect.mem_set_unit]
  exact Iff.rfl
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v0_1).slice (win0_5.rect t)).set ↔ _
  rw [View.set_slice_whole, Rect.mem_set_unit]
  exact Iff.rfl

/-- Row `r` is in the block of point `r / 5000`. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, e0, e1, -⟩ := idx_facts t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, e0, e1⟩ := idx_facts t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE ARRAYS after the launch. -/
theorem final4 (c : Dev nD) : (dat0 V c).arrAt 4 cfg0.N = Hf V c :=
  (dat0 V c).arrAt_eq_of_cover 4 (Hf V c) (fun t _ => flushed4_eq V c t) (cover4)
theorem final5 (c : Dev nD) : (dat0 V c).arrAt 5 cfg0.N = HGf V c :=
  (dat0 V c).arrAt_eq_of_cover 5 (HGf V c) (fun t _ => flushed5_eq V c t) (cover5)

end Cert.KernelIdeal.Reg0V

end
-- ==== Proof.Payload1.lean ====
/-
  What the second kernel's body computes, at one entry of its block.

  A grid point holds 5000 rows of `h` and of the aggregated features. The body joins each row of `h` with the ramp of the
  aggregated row plus a bias into a row of 128, and normalises every row on its own: a lane sum over the 128 entries,
  divided by 128, broadcast back along the row; the deviations; the lane sum of their squares divided by 128; the inverse
  square root of that plus ε, broadcast back; then the scale and shift rows broadcast down the block. Nothing couples two
  rows, so entry `(p, j)` of the output block is `lnEntry` of row `p`'s 128 numbers.

  The body is first restated as a composition of three row operations on an arbitrary block `C` of shape [5000, 128]
  (`meanB`, `devB`, `varB`: the body's own operations, so the restatement holds by unfolding), each of which is then
  read at an index; the joined block is read at an index by the side of the join its column falls on.
-/
import proofs.«130040_j28398323761501_1_alg».proof.Proof.Gen.KernelIdeal.Skeleton
import proofs.«130040_j28398323761501_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLn

open Cert.KernelIdeal Cert.KernelIdeal.Gen Cert.Gcn
open Idealize.ShloMosaic Idealize.ShloMosaic.ValueIdx

/-! ## The layout operations of the body, read at an index -/

/-- A lane sum of a [5000, 128] block at row `p`: the sum of the row's 128 entries. -/
theorem rowSum_apply (C : FVec Ideal S5000x128 .f32) (p : Fin 5000) :
    multiReduction (F := Ideal) .add [1] S5000 C 0x00000000#32 reduces_S5000x128_S5000 (.inl rfl) rfl (ix1 p)
      = ∑ k : Fin 128, C (ix2 p k) := by
  refine (Ideal.multiReduction_add_single C 0x00000000#32 reduces_S5000x128_S5000 (.inl rfl) rfl (ix1 p)).trans ?_
  refine Finset.sum_congr rfl fun k _ => ?_
  exact congrArg C (funext fun a => Fin.ext (by match a with | ⟨0, _⟩ => rfl | ⟨1, _⟩ => rfl))

/-- A [5000] vector cast to a [5000, 1] column reads, at `(p, u)`, the vector at `p`. -/
theorem colCast_apply (v : FVec Ideal S5000 .f32) (p : Fin 5000) (u : Fin 1) :
    shapeCast S5000x1 v shapeCasts_S5000_S5000x1 (ix2 p u) = v (ix1 p) :=
  shapeCast_apply v shapeCasts_S5000_S5000x1 _ _ (by
    have hu : u.val = 0 := by omega
    rw [Shape.rowMajor_val_two, Shape.rowMajor_val_one]
    show p.val = p.val * 1 + u.val
    omega)

/-- A [5000, 1] column broadcast along the rows reads, at `(p, j)`, the column at `p`. -/
theorem colBcast_apply (w : FVec Ideal S5000x1 .f32) (p : Fin 5000) (j : Fin 128) :
    broadcastTo S5000x128 w broadcasts_S5000x1_S5000x128 (ix2 p j) = w (ix2 p (0 : Fin 1)) := by
  refine broadcastTo_apply w broadcasts_S5000x1_S5000x128 (ix2 p j) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else j.val
    rw [if_pos rfl]

/-- A [128] row cast to [1, 128] and broadcast down the block reads, at `(p, j)`, the row at `j`. -/
theorem rowBcast128_apply (v : FVec Ideal S128 .f32) (p : Fin 5000) (j : Fin 128) :
    broadcastTo S5000x128 (shapeCast S1x128 v shapeCasts_S128_S1x128) broadcasts_S1x128_S5000x128 (ix2 p j) = v (ix1 j) := by
  rw [broadcastTo_1b_ab_apply, shapeCast_a_1a_apply]

/-- The same for a [64] row down a [5000, 64] block. -/
theorem rowBcast64_apply (v : FVec Ideal S64 .f32) (p : Fin 5000) (q : Fin 64) :
    broadcastTo S5000x64 (shapeCast S1x64 v shapeCasts_S64_S1x64) broadcasts_S1x64_S5000x64 (ix2 p q) = v (ix1 q) := by
  rw [broadcastTo_1b_ab_apply, shapeCast_a_1a_apply]

/-- Two [5000, 64] blocks joined along the columns read, at `(p, k)`, the first at `(p, k)` when `k < 64` and the second
    at `(p, k − 64)` otherwise. -/
theorem join_apply (A B : FVec Ideal S5000x64 .f32) (p : Fin 5000) (k : Fin 128) :
    concatenate S5000x128 1 [⟨S5000x64, A⟩, ⟨S5000x64, B⟩] concatenates_S5000x64_S5000x64_S5000x128_d1 (ix2 p k)
      = if hk : k.val < 64 then A (ix2 p ⟨k.val, hk⟩) else B (ix2 p ⟨k.val - 64, by omega⟩) := by
  by_cases hk : k.val < 64
  · rw [dif_pos hk]
    refine concatenate_pair_apply_left 1 A B concatenates_S5000x64_S5000x64_S5000x128_d1 (ix2 p k) rfl (ix2 p ⟨k.val, hk⟩) fun b => ?_
    match b with
    | ⟨0, _⟩ => rfl
    | ⟨1, _⟩ => rfl
  · rw [dif_neg hk]
    refine concatenate_pair_apply_right 1 A B concatenates_S5000x64_S5000x64_S5000x128_d1 (ix2 p k) rfl rfl (ix2 p ⟨k.val - 64, by omega⟩)
      (fun b hb => ?_) ?_
    · match b with
      | ⟨0, _⟩ => rfl
      | ⟨1, _⟩ => exact absurd rfl hb
    · show (k.val - 64) + 64 = k.val
      omega

/-! ## The body as three row operations on a block -/

/-- The block's row means, as a [5000, 1] column. -/
def meanB (C : FVec Ideal S5000x128 .f32) : FVec Ideal S5000x1 .f32 :=
  divf (shapeCast S5000x1 (multiReduction (F := Ideal) .add [1] S5000 C 0x00000000#32 reduces_S5000x128_S5000 (.inl rfl) rfl) shapeCasts_S5000_S5000x1)
    (broadcast S5000x1 (Scalar.ofBits (F := Ideal) .f32 0x43000000#32))
/-- The deviations from the row means. -/
def devB (C : FVec Ideal S5000x128 .f32) : FVec Ideal S5000x128 .f32 :=
  subf C (broadcastTo S5000x128 (meanB C) broadcasts_S5000x1_S5000x128)
/-- The block's row variances, as a [5000, 1] column. -/
def varB (C : FVec Ideal S5000x128 .f32) : FVec Ideal S5000x1 .f32 :=
  divf (shapeCast S5000x1 (multiReduction (F := Ideal) .add [1] S5000 (mulf (devB C) (devB C)) 0x00000000#32 reduces_S5000x128_S5000 (.inl rfl) rfl) shapeCasts_S5000_S5000x1)
    (broadcast S5000x1 (Scalar.ofBits (F := Ideal) .f32 0x43000000#32))
/-- The joined block: the rows of `h`, then the ramp of the aggregated rows plus the bias. -/
def joinB (v0 v2 : FVec Ideal S5000x64 .f32) (v4 : FVec Ideal S64 .f32) : FVec Ideal S5000x128 .f32 :=
  concatenate S5000x128 1 [⟨S5000x64, shapeCast S5000x64 v0 shapeCasts_S5000x64_S5000x64⟩,
    ⟨S5000x64, maximumf (addf (shapeCast S5000x64 v2 shapeCasts_S5000x64_S5000x64) (broadcastTo S5000x64 (shapeCast S1x64 v4 shapeCasts_S64_S1x64) broadcasts_S1x64_S5000x64))
      (broadcast S5000x64 (Scalar.ofBits (F := Ideal) .f32 0x00000000#32))⟩] concatenates_S5000x64_S5000x64_S5000x128_d1

/-- The body's stored value is the normalisation of the joined block, scaled and shifted: the printed operations, regrouped. -/
theorem pay_eq (v0 v2 : FVec Ideal S5000x64 .f32) (v4 : FVec Ideal S64 .f32) (v5 v6 : FVec Ideal S128 .f32) :
    k1_pay1 (F := Ideal) v0 v2 v4 v5 v6
      = addf (mulf (mulf (devB (joinB v0 v2 v4))
            (broadcastTo S5000x128 (rsqrt (addf (varB (joinB v0 v2 v4)) (broadcast S5000x1 (Scalar.ofBits (F := Ideal) .f32 0x3727C5AC#32)))) broadcasts_S5000x1_S5000x128))
          (broadcastTo S5000x128 (shapeCast S1x128 v5 shapeCasts_S128_S1x128) broadcasts_S1x128_S5000x128))
        (broadcastTo S5000x128 (shapeCast S1x128 v6 shapeCasts_S128_S1x128) broadcasts_S1x128_S5000x128) := rfl

theorem meanB_apply (C : FVec Ideal S5000x128 .f32) (p : Fin 5000) (u : Fin 1) :
    meanB C (ix2 p u) = rowMean (fun k => C (ix2 p k)) := by
  unfold meanB rowMean
  show Ideal.div (shapeCast S5000x1 (multiReduction (F := Ideal) .add [1] S5000 C 0x00000000#32 reduces_S5000x128_S5000 (.inl rfl) rfl) shapeCasts_S5000_S5000x1 (ix2 p u)) w128 = _
  rw [colCast_apply, rowSum_apply]

theorem devB_apply (C : FVec Ideal S5000x128 .f32) (p : Fin 5000) (j : Fin 128) :
    devB C (ix2 p j) = C (ix2 p j) - rowMean (fun k => C (ix2 p k)) := by
  unfold devB
  show C (ix2 p j) - broadcastTo S5000x128 (meanB C) broadcasts_S5000x1_S5000x128 (ix2 p j) = _
  rw [colBcast_apply, meanB_apply]

theorem varB_apply (C : FVec Ideal S5000x128 .f32) (p : Fin 5000) (u : Fin 1) :
    varB C (ix2 p u) = rowVar (fun k => C (ix2 p k)) := by
  unfold varB rowVar
  show Ideal.div (shapeCast S5000x1 (multiReduction (F := Ideal) .add [1] S5000 (mulf (devB C) (devB C)) 0x00000000#32 reduces_S5000x128_S5000 (.inl rfl) rfl) shapeCasts_S5000_S5000x1 (ix2 p u)) w128 = _
  rw [colCast_apply, rowSum_apply]
  refine congrArg (fun s => Ideal.div s w128) (Finset.sum_congr rfl fun k _ => ?_)
  show devB C (ix2 p k) * devB C (ix2 p k) = _
  rw [devB_apply]

theorem joinB_apply (v0 v2 : FVec Ideal S5000x64 .f32) (v4 : FVec Ideal S64 .f32) (p : Fin 5000) (k : Fin 128) :
    joinB v0 v2 v4 (ix2 p k) = catRow (fun q => v0 (ix2 p q)) (fun q => v2 (ix2 p q)) (fun q => v4 (ix1 q)) k := by
  unfold joinB catRow
  rw [join_apply, shapeCast_self, shapeCast_self]
  by_cases hk : k.val < 64
  · rw [dif_pos hk, dif_pos hk]
  · rw [dif_neg hk, dif_neg hk]
    show max (v2 (ix2 p ⟨k.val - 64, _⟩) + broadcastTo S5000x64 (shapeCast S1x64 v4 shapeCasts_S64_S1x64) broadcasts_S1x64_S5000x64 (ix2 p ⟨k.val - 64, _⟩)) wZero = _
    rw [rowBcast64_apply]

/-- THE BODY at `(p, j)`: entry `j` of the normalisation of row `p`'s 128 numbers. -/
theorem payLn_apply (v0 v2 : FVec Ideal S5000x64 .f32) (v4 : FVec Ideal S64 .f32) (v5 v6 : FVec Ideal S128 .f32) (p : Fin 5000) (j : Fin 128) :
    k1_pay1 (F := Ideal) v0 v2 v4 v5 v6 (ix2 p j)
      = lnEntry (catRow (fun q => v0 (ix2 p q)) (fun q => v2 (ix2 p q)) (fun q => v4 (ix1 q))) (v5 (ix1 j)) (v6 (ix1 j)) j := by
  rw [pay_eq]
  have hrow : (fun k => joinB v0 v2 v4 (ix2 p k)) = catRow (fun q => v0 (ix2 p q)) (fun q => v2 (ix2 p q)) (fun q => v4 (ix1 q)) :=
    funext fun k => joinB_apply v0 v2 v4 p k
  unfold lnEntry
  show devB (joinB v0 v2 v4) (ix2 p j)
        * broadcastTo S5000x128 (rsqrt (addf (varB (joinB v0 v2 v4)) (broadcast S5000x1 (Scalar.ofBits (F := Ideal) .f32 0x3727C5AC#32)))) broadcasts_S5000x1_S5000x128 (ix2 p j)
        * broadcastTo S5000x128 (shapeCast S1x128 v5 shapeCasts_S128_S1x128) broadcasts_S1x128_S5000x128 (ix2 p j)
      + broadcastTo S5000x128 (shapeCast S1x128 v6 shapeCasts_S128_S1x128) broadcasts_S1x128_S5000x128 (ix2 p j) = _
  rw [rowBcast128_apply, rowBcast128_apply, colBcast_apply, devB_apply]
  show (joinB v0 v2 v4 (ix2 p j) - rowMean (fun k => joinB v0 v2 v4 (ix2 p k)))
        * Ideal.rsqrt (varB (joinB v0 v2 v4) (ix2 p (0 : Fin 1)) + wEps) * v5 (ix1 j) + v6 (ix1 j) = _
  rw [varB_apply, hrow, joinB_apply]

end Cert.KernelIdeal.PayLn

end
-- ==== Proof.Region1.lean ====
/-
  The second launch's output array as a whole-array function of its inputs.

  The grid again has 20 points; point `t` reads rows `5000·t …` of the two [100000, 64] arrays and the whole of the three
  parameter rows, and writes back rows `5000·t …` of the [100000, 128] result. A row of the result is the normalisation of
  the same row of the two inputs joined, so what point `t` writes back is the restriction to its rows of `lnOut` of the
  whole input arrays; the twenty blocks tile the rows, and after the last write-back the result array is `lnOut`
  everywhere. Stated at a parameter `V`, the buffer contents when the launch is entered.
-/
import proofs.«130040_j28398323761501_1_alg».proof.Proof.Gen.KernelIdeal.Frame
import proofs.«130040_j28398323761501_1_alg».proof.Proof.Payload1
import proofs.«130040_j28398323761501_1_alg».proof.Proof.Spec
import Idealize.ShloMosaic.Lib.Pipeline.Value
import Idealize.ShloMosaic.Lib.ValueIdx

set_option maxRecDepth 16384

noncomputable section

namespace Cert.KernelIdeal.Reg1V

open Cert.KernelIdeal Cert.KernelIdeal.Gen Cert.KernelIdeal.PayLn Cert.Gcn
open Idealize.ShloMosaic Idealize.ShloMosaic.TcCoe Idealize.ShloMosaic.ValueIdx Idealize.SL.Sem
open Idealize.ShloMosaic.Pipeline (Dat Cfg Window)

/-- If the two blocks of 5000 rows are rows `5000·T …` of `Hh` and of `A`, the output block at `y` is `lnOut` of the whole
    arrays at the index with row `5000·T + y₀` and the same column. -/
theorem lnBlock (Hh A : S100000x64.Idx → EReal) (Bg : S64.Idx → EReal) (Ga Be : S128.Idx → EReal)
    (x0 x1 : FVec Ideal S5000x64 .f32) (T : Nat)
    (h0 : ∀ (p : Fin 5000) (q : Fin 64) (r : Fin 100000), r.val = T * 5000 + p.val → x0 (ix2 p q) = Hh (ix2 r q))
    (h1 : ∀ (p : Fin 5000) (q : Fin 64) (r : Fin 100000), r.val = T * 5000 + p.val → x1 (ix2 p q) = A (ix2 r q))
    (y : S5000x128.Idx) (i : S100000x128.Idx) (hi0 : (i 0).val = T * 5000 + (y 0).val) (hi1 : (i 1).val = (y 1).val) :
    k1_pay1 (F := Ideal) x0 x1 Bg Ga Be y = lnOut Hh A Bg Ga Be i := by
  obtain ⟨p, j, rfl⟩ : ∃ (p : Fin 5000) (j : Fin 128), y = ix2 p j := ⟨y 0, y 1, eq_ix2 y⟩
  rw [payLn_apply]
  unfold lnOut
  have e1 : (i 1 : Fin 128) = j := Fin.ext hi1
  have ea : (fun q => x0 (ix2 p q)) = fun k => Hh (ix2 (i 0) k) := funext fun q => h0 p q (i 0) hi0
  have eb : (fun q => x1 (ix2 p q)) = fun k => A (ix2 (i 0) k) := funext fun q => h1 p q (i 0) hi0
  rw [e1, ea, eb]

theorem hz2 : (![0, 0] : Fin 2 → Nat) = fun _ => 0 := funext fun a => by fin_cases a <;> rfl
theorem hz1 : (![0] : Fin 1 → Nat) = fun _ => 0 := funext fun a => by fin_cases a <;> rfl

/-- Point `t` reads block `t` of the rows of the two feature arrays and block 0 of the three parameter rows, and writes
    block `t` of the rows of the result. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

theorem hblk (c : Dev nD) (t : Fin cfg1.N) (p : Fin 5000) (q : Fin 64) (r : Fin 100000) (hr : r.val = t.val * 5000 + p.val) :
    iblk1 V c 0 t (ix2 p q) = V c main_v0_0 (ix2 r q) := by
  obtain ⟨e0, e1, -⟩ := idx_facts t
  show V c main_v0_0 (((cfg1.win 0).blk t).view.emb (ix2 p q)) = V c main_v0_0 (ix2 r q)
  refine congrArg (V c main_v0_0) (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega
theorem ablk (c : Dev nD) (t : Fin cfg1.N) (p : Fin 5000) (q : Fin 64) (r : Fin 100000) (hr : r.val = t.val * 5000 + p.val) :
    iblk1 V c 1 t (ix2 p q) = V c main_v45 (ix2 r q) := by
  obtain ⟨-, -, e0, e1, -⟩ := idx_facts t
  show V c main_v45 (((cfg1.win 1).blk t).view.emb (ix2 p q)) = V c main_v45 (ix2 r q)
  refine congrArg (V c main_v45) (funext fun a => Fin.ext ?_)
  match a with
  | ⟨0, _⟩ => show win1_1.index t (0 : Fin 2) * 5000 + 1 * p.val = r.val; omega
  | ⟨1, _⟩ => show win1_1.index t (1 : Fin 2) * 64 + 1 * q.val = q.val; omega
theorem bgblk (c : Dev nD) (t : Fin cfg1.N) : iblk1 V c 2 t = V c main_arg5 := by
  obtain ⟨-, -, -, -, e0, -⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 1) * 64 + 1 * (y 0).val = (y 0).val; omega
theorem gablk (c : Dev nD) (t : Fin cfg1.N) : iblk1 V c 3 t = V c main_arg6 := by
  obtain ⟨-, -, -, -, -, e0, -⟩ := idx_facts t
  funext y
  show V c main_arg6 (((cfg1.win 3).blk t).view.emb y) = V c main_arg6 y
  refine congrArg (V c main_arg6) (funext fun a => Fin.ext ?_)
  match a with
  | ⟨0, _⟩ => show win1_3.index t (0 : Fin 1) * 128 + 1 * (y 0).val = (y 0).val; omega
theorem beblk (c : Dev nD) (t : Fin cfg1.N) : iblk1 V c 4 t = V c main_arg7 := by
  obtain ⟨-, -, -, -, -, -, e0, -⟩ := idx_facts t
  funext y
  show V c main_arg7 (((cfg1.win 4).blk t).view.emb y) = V c main_arg7 y
  refine congrArg (V c main_arg7) (funext fun a => Fin.ext ?_)
  match a with
  | ⟨0, _⟩ => show win1_4.index t (0 : Fin 1) * 128 + 1 * (y 0).val = (y 0).val; omega

/-- The launch's output, as a function of the arrays the launch finds. -/
abbrev Of (c : Dev nD) : S100000x128.Idx → EReal :=
  lnOut (V c main_v0_0) (V c main_v45) (V c main_arg5) (V c main_arg6) (V c main_arg7)

theorem flushed5_eq (c : Dev nD) (t : Fin cfg1.N) :
    (dat1 V c).flushed 5 t = ((cfg1.win 5).blk t).view.read (Elt Ideal) (Of V c) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64) hz1, View.ld_unit_zero (S := S128) hz1]
  rw [bgblk V c t, gablk V c t, beblk V c t]
  obtain ⟨-, -, -, -, -, -, -, e0, e1⟩ := idx_facts t
  funext y
  show k1_pay1 (F := Ideal) (iblk1 V c 0 t) (iblk1 V c 1 t) (V c main_arg5) (V c main_arg6) (V c main_arg7) y = Of V c (((cfg1.win 5).blk t).view.emb y)
  refine lnBlock (V c main_v0_0) (V c main_v45) (V c main_arg5) (V c main_arg6) (V c main_arg7) (iblk1 V c 0 t) (iblk1 V c 1 t) t.val
    (fun p q r hr => hblk V c t p q r hr) (fun p q r hr => ablk V c t p q r hr) y (((cfg1.win 5).blk t).view.emb y) ?_ ?_
  · show win1_5.index t (0 : Fin 2) * 5000 + 1 * (y 0).val = t.val * 5000 + (y 0).val; omega
  · show win1_5.index t (1 : Fin 2) * 128 + 1 * (y 1).val = (y 1).val; omega

theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

/-- Row `r` is in the block of point `r / 5000`. -/
theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, e0, e1⟩ := idx_facts t
  have ht : t.val = (i 0).val / 5000 := rfl
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the launch. -/
theorem final5 (c : Dev nD) : (dat1 V c).arrAt 5 cfg1.N = Of V c :=
  (dat1 V c).arrAt_eq_of_cover 5 (Of V c) (fun t _ => flushed5_eq V c t) (cover5)

end Cert.KernelIdeal.Reg1V

end
-- ==== Proof.KernelValue.lean ====
/-
  The idealized kernel's result as one function of its arguments.

  The frame module's boundary contents are read one after the other. After the first launch its two output arrays hold
  `hOut` and `hgOut` of the launch arguments (the region-0 module, at the launch memory). The host stretch leaves the first
  of them and the parameter rows alone and puts `aggOf` of the second and of the edge list into the convolution's buffer.
  The second launch finds exactly these and leaves `lnOut` of them in the result buffer (the region-1 module, at the
  contents after the stretch). The run with the result in its post then says: every weakly fair execution ends with
      out = lnOut (hOut x W₁ b₁) (aggOf (hgOut (hOut x W₁ b₁) W_g) e) b_g γ β
  and the arguments unchanged.
-/
import proofs.«130040_j28398323761501_1_alg».proof.Proof.KernelRun
import proofs.«130040_j28398323761501_1_alg».proof.Proof.Region0
import proofs.«130040_j28398323761501_1_alg».proof.Proof.Region1
import proofs.«130040_j28398323761501_1_alg».proof.Proof.Middle
import proofs.«130040_j28398323761501_1_alg».proof.Proof.Spec

set_option maxRecDepth 16384

noncomputable section

namespace Cert.KernelIdeal.ValueV

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-- The result as the specification's composition of the launch arguments. -/
def G (c : Dev nD) : S100000x128.Idx → EReal :=
  lnOut (hOut (m ((c : Thread nD τ).loc main_arg0)) (m ((c : Thread nD τ).loc main_arg2)) (m ((c : Thread nD τ).loc main_arg3)))
    (MidV.aggOf (F := Ideal) (hgOut (hOut (m ((c : Thread nD τ).loc main_arg0)) (m ((c : Thread nD τ).loc main_arg2)) (m ((c : Thread nD τ).loc main_arg3))) (m ((c : Thread nD τ).loc main_arg4))) (m ((c : Thread nD τ).loc main_arg1)))
    (m ((c : Thread nD τ).loc main_arg5)) (m ((c : Thread nD τ).loc main_arg6)) (m ((c : Thread nD τ).loc main_arg7))

/-! ## After the first launch -/

theorem W1_h (c : Dev nD) : (W1 m ρ c (Proc.devRef .tc main_v0_0) : S100000x64.Idx → EReal)
    = hOut (m ((c : Thread nD τ).loc main_arg0)) (m ((c : Thread nD τ).loc main_arg2)) (m ((c : Thread nD τ).loc main_arg3)) :=
  (W1_arr m ρ c 4).trans (Reg0V.final4 (V0 m ρ) c)
theorem W1_hg (c : Dev nD) : (W1 m ρ c (Proc.devRef .tc main_v0_1) : S100000x64.Idx → EReal)
    = hgOut (hOut (m ((c : Thread nD τ).loc main_arg0)) (m ((c : Thread nD τ).loc main_arg2)) (m ((c : Thread nD τ).loc main_arg3))) (m ((c : Thread nD τ).loc main_arg4)) :=
  (W1_arr m ρ c 5).trans (Reg0V.final5 (V0 m ρ) c)
theorem W1_arg1 (c : Dev nD) : W1 m ρ c (Proc.devRef .tc main_arg1) = (m ((c : Thread nD τ).loc main_arg1)) := W1_of_ne m ρ c main_arg1 (by decide)
theorem W1_arg5 (c : Dev nD) : W1 m ρ c (Proc.devRef .tc main_arg5) = (m ((c : Thread nD τ).loc main_arg5)) := W1_of_ne m ρ c main_arg5 (by decide)
theorem W1_arg6 (c : Dev nD) : W1 m ρ c (Proc.devRef .tc main_arg6) = (m ((c : Thread nD τ).loc main_arg6)) := W1_of_ne m ρ c main_arg6 (by decide)
theorem W1_arg7 (c : Dev nD) : W1 m ρ c (Proc.devRef .tc main_arg7) = (m ((c : Thread nD τ).loc main_arg7)) := W1_of_ne m ρ c main_arg7 (by decide)

/-! ## After the host stretch: what the second launch finds -/

theorem V4_h (c : Dev nD) : (V4 m ρ c main_v0_0 : S100000x64.Idx → EReal) = hOut (m ((c : Thread nD τ).loc main_arg0)) (m ((c : Thread nD τ).loc main_arg2)) (m ((c : Thread nD τ).loc main_arg3)) :=
  (MidV.W4_h m ρ c).trans (W1_h m ρ c)
theorem V4_agg (c : Dev nD) : (V4 m ρ c main_v45 : S100000x64.Idx → EReal)
    = MidV.aggOf (F := Ideal) (hgOut (hOut (m ((c : Thread nD τ).loc main_arg0)) (m ((c : Thread nD τ).loc main_arg2)) (m ((c : Thread nD τ).loc main_arg3))) (m ((c : Thread nD τ).loc main_arg4))) (m ((c : Thread nD τ).loc main_arg1)) := by
  refine (MidV.W4_agg m ρ c).trans ?_
  rw [W1_hg m ρ c, W1_arg1 m ρ c]
theorem V4_arg5 (c : Dev nD) : V4 m ρ c main_arg5 = (m ((c : Thread nD τ).loc main_arg5)) := (MidV.W4_arg5 m ρ c).trans (W1_arg5 m ρ c)
theorem V4_arg6 (c : Dev nD) : V4 m ρ c main_arg6 = (m ((c : Thread nD τ).loc main_arg6)) := (MidV.W4_arg6 m ρ c).trans (W1_arg6 m ρ c)
theorem V4_arg7 (c : Dev nD) : V4 m ρ c main_arg7 = (m ((c : Thread nD τ).loc main_arg7)) := (MidV.W4_arg7 m ρ c).trans (W1_arg7 m ρ c)

/-! ## After the second launch -/

/-- The result buffer at the last boundary is `G`. -/
theorem result_eq (c : Dev nD) : (W5 m ρ c (Proc.devRef .tc main_v46) : S100000x128.Idx → EReal) = G m c := by
  refine (RunV.W5_result m ρ c).trans ((Reg1V.final5 (V4 m ρ) c).trans ?_)
  show lnOut (V4 m ρ c main_v0_0) (V4 m ρ c main_v45) (V4 m ρ c main_arg5) (V4 m ρ c main_arg6) (V4 m ρ c main_arg7) = _
  rw [V4_h m ρ c, V4_agg m ρ c, V4_arg5 m ρ c, V4_arg6 m ρ c, V4_arg7 m ρ c]
  rfl

/-- THE RUN: every weakly fair execution of @main terminates without a fault, the result at `G` of the arguments, the
    arguments unchanged. -/
theorem run : θ_run defs (onTc (τ := τ) (main (F := Ideal))) ⟨m, fun _ => 0, ρ⟩ (fun r => ∀ c : Dev nD,
      r.2.mem ((c.tc : Thread nD τ).loc main_v46) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunV.run_result m ρ)

end Cert.KernelIdeal.ValueV

end
-- ==== Proof.lean ====
/-
  The certificate: a graph-convolution block with attention-style normalisation, computed by two tiled kernels around a
  host gather/scatter, equals its plain array reference on the extended reals.

  Both programs compute, for 100000 nodes with 3 coordinates each and 1.7 million directed edges (self loops included),
      h   = max (x · W₁ + b₁) 0                                   -- first layer, 64 features
      hg  = h · W_g                                                -- the features sent along the edges
      agg = the symmetric-normalised sum of hg over each node's in-edges
      out = LayerNorm (h ‖ max (agg + b_g) 0) · γ + β              -- per node, over the 128 joined features
  The kernel tiles the node axis into 20 blocks of 5000 rows, once for the two matrix products and once for the joined
  normalisation; the aggregation between them is the same host operations the reference uses. At the ideal reading a
  change of float format is the identity and every sum is exact, so a block's rows of either kernel are the
  corresponding rows of the whole-array functions (`hOut`, `hgOut`, `lnOut` of Proof/Spec.lean), because each row of every
  stage depends on the same row of its inputs only; the twenty blocks tile the rows. No algebraic law beyond the
  associativity already inside a finite sum is used, so the precondition (finite inputs) is never opened.

  The pieces: Proof/Payload0.lean and Payload1.lean read the two kernel bodies at one entry; Region0.lean and Region1.lean
  turn blocks into whole arrays; Middle.lean names the host aggregation `aggOf` and reads the kernel's host stretch;
  KernelRun.lean and KernelValue.lean state the kernel's run with its result; RefValue.lean reads the reference as the
  same composition. Below, the three frames, the (empty) idealization ledger, and the equality of the two results.
-/
import proofs.«130040_j28398323761501_1_alg».proof.Defs
import proofs.«130040_j28398323761501_1_alg».proof.Proof.Gen.Kernel
import proofs.«130040_j28398323761501_1_alg».proof.Proof.Gen.Kernel.Skeleton
import proofs.«130040_j28398323761501_1_alg».proof.Proof.Gen.Kernel.Launch
import proofs.«130040_j28398323761501_1_alg».proof.Proof.Gen.Kernel.Points
import proofs.«130040_j28398323761501_1_alg».proof.Proof.Gen.Kernel.Frame
import proofs.«130040_j28398323761501_1_alg».proof.Proof.Gen.KernelIdeal
import proofs.«130040_j28398323761501_1_alg».proof.Proof.Gen.KernelIdeal.Skeleton
import proofs.«130040_j28398323761501_1_alg».proof.Proof.Gen.KernelIdeal.Launch
import proofs.«130040_j28398323761501_1_alg».proof.Proof.Gen.KernelIdeal.Points
import proofs.«130040_j28398323761501_1_alg».proof.Proof.Gen.KernelIdeal.Frame
import proofs.«130040_j28398323761501_1_alg».proof.Proof.Gen.ReferenceIdeal
import proofs.«130040_j28398323761501_1_alg».proof.Proof.Gen.Pre_finite_inputs
import proofs.«130040_j28398323761501_1_alg».proof.Proof.RefRead
import proofs.«130040_j28398323761501_1_alg».proof.Proof.RefValue
import proofs.«130040_j28398323761501_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- Both runs end with the result at one function of the arguments: the kernel's at `G` of its memory, the reference's
    at the same composition of ITS memory, which agrees with the kernel's on the eight arguments. -/
theorem algebraic : Cert.algebraic_KernelIdeal_ReferenceIdeal := by
  intro m ρ m' ρ' _ hagree
  refine ⟨fun c => Cert.KernelIdeal.ValueV.G m c, Cert.KernelIdeal.ValueV.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v79_eq, Cert.ReferenceIdeal.RefV.ref_out,
    (hagree c).1, (hagree c).2.1, (hagree c).2.2.1, (hagree c).2.2.2.1, (hagree c).2.2.2.2.1, (hagree c).2.2.2.2.2.1, (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
